-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S32x128 : Shape := ⟨2, ![32, 128]⟩
abbrev S32 : Shape := ⟨1, ![32]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S100000x128 .f32) (main_arg1 : FVec F S32x128 .f32) (main_arg2 : FVec F S32 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S100000x128 : Shape := ⟨2, ![100000, 128]⟩
abbrev S32x128 : Shape := ⟨2, ![32, 128]⟩
abbrev S32 : Shape := ⟨1, ![32]⟩
abbrev S1600000 : Shape := ⟨1, ![1600000]⟩
abbrev S1x32 : Shape := ⟨2, ![1, 32]⟩
abbrev S100000x32 : Shape := ⟨2, ![100000, 32]⟩
abbrev S10000x128 : Shape := ⟨2, ![10000, 128]⟩
abbrev S10000x32 : Shape := ⟨2, ![10000, 32]⟩
abbrev S128x32 : Shape := ⟨2, ![128, 32]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S8000x32 : Shape := ⟨2, ![8000, 32]⟩
abbrev S8000x1 : Shape := ⟨2, ![8000, 1]⟩

abbrev nBuf : Space → Nat
  | .hbm => 54
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S32x128, .f32⟩
  | .hbm, ⟨2, _⟩ => ⟨S32, .f32⟩
  | .hbm, ⟨3, _⟩ => ⟨S1600000, .i32⟩
  | .hbm, ⟨4, _⟩ => ⟨S1600000, .i32⟩
  | .hbm, ⟨5, _⟩ => ⟨S1x32, .f32⟩
  | .hbm, ⟨6, _⟩ => ⟨S100000x32, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x32, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000x1, .f32⟩
  | .hbm, ⟨46, _⟩ => ⟨S1600000x32, .f32⟩
  | .hbm, ⟨47, _⟩ => ⟨S_, .f32⟩
  | .hbm, ⟨48, _⟩ => ⟨S100000x32, .f32⟩
  | .hbm, ⟨49, _⟩ => ⟨S1600000x1, .i32⟩
  | .hbm, ⟨50, _⟩ => ⟨S100000x32, .f32⟩
  | .hbm, ⟨51, _⟩ => ⟨S_, .f32⟩
  | .hbm, ⟨52, _⟩ => ⟨S100000x32, .f32⟩
  | .hbm, ⟨53, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S32x128, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | .local _ .vmem, ⟨6, _⟩ => ⟨S8000x32, .f32⟩
  | .local _ .vmem, ⟨7, _⟩ => ⟨S8000x32, .f32⟩
  | .local _ .vmem, ⟨8, _⟩ => ⟨S8000x1, .f32⟩
  | .local _ .vmem, ⟨9, _⟩ => ⟨S8000x1, .f32⟩
  | .local _ .vmem, ⟨10, _⟩ => ⟨S8000x1, .f32⟩
  | .local _ .vmem, ⟨11, _⟩ => ⟨S8000x1, .f32⟩
  | .local _ .vmem, ⟨12, _⟩ => ⟨S8000x32, .f32⟩
  | .local _ .vmem, ⟨13, _⟩ => ⟨S8000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_cst : Ref sig .tc := ⟨.hbm, 51, rfl⟩
abbrev main_call0_v0 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  transposes_S32x128_p1_0_S128x32 : S32x128.Transposes [1, 0] S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  broadcasts_S8000x1_S8000x32 : S8000x1.Broadcasts S8000x32
  bcast_S_S100000x32 : S_.BroadcastsInDim S100000x32 (![] : Fin 0 → Fin S100000x32.rank)
  dot_S10000x128_S128x32_S10000x32_1_0_0_1_n_n_wf : DotDims.WF S10000x128 S128x32 S10000x32 [1] [0] [0] [1] [] []
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  gather_S100000_S1600000x1_S1600000_n_0_n_n_0_1_1_wf : GatherDims.WF S100000 S1600000x1 S1600000 [] [0] [] [0] [] 1 ![1]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S1600000x32.size a
  hwx1_0 : ∀ i : grid1.Coords, EltTy.bits .f32 = 32 ∨ (Rect.block (s := S1600000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S1600000x1.size a
  hwx1_2 : ∀ i : grid1.Coords, EltTy.bits .f32 = 32 ∨ (Rect.block (s := S1600000x1) S8000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x32.size a ≤ S1600000x32.size a
  hwx1_3 : ∀ i : grid1.Coords, EltTy.bits .f32 = 32 ∨ (Rect.block (s := S1600000x32) S8000x32.size (cc1_transform_3 i) (hinb1_3 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S8000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S32x128 : Shape := ⟨2, ![32, 128]⟩
abbrev S32 : Shape := ⟨1, ![32]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S128x32 : Shape := ⟨2, ![128, 32]⟩
abbrev S100000x32 : Shape := ⟨2, ![100000, 32]⟩
abbrev S1x32 : Shape := ⟨2, ![1, 32]⟩
abbrev S1600000x32 : Shape := ⟨2, ![1600000, 32]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S32x128, .f32⟩
  | .hbm, ⟨2, _⟩ => ⟨S32, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S128x32, .f32⟩
  | .hbm, ⟨16, _⟩ => ⟨S100000x32, .f32⟩
  | .hbm, ⟨17, _⟩ => ⟨S1x32, .f32⟩
  | .hbm, ⟨18, _⟩ => ⟨S100000x32, .f32⟩
  | .hbm, ⟨19, _⟩ => ⟨S100000x32, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x32, .f32⟩
  | .hbm, ⟨48, _⟩ => ⟨S1600000x1, .f32⟩
  | .hbm, ⟨49, _⟩ => ⟨S1600000x32, .f32⟩
  | .hbm, ⟨50, _⟩ => ⟨S1600000x32, .f32⟩
  | .hbm, ⟨51, _⟩ => ⟨S_, .f32⟩
  | .hbm, ⟨52, _⟩ => ⟨S100000x32, .f32⟩
  | .hbm, ⟨53, _⟩ => ⟨S1600000x1, .i32⟩
  | .hbm, ⟨54, _⟩ => ⟨S100000x32, .f32⟩
  | .hbm, ⟨55, _⟩ => ⟨S_, .f32⟩
  | .hbm, ⟨56, _⟩ => ⟨S100000x32, .f32⟩
  | .hbm, ⟨57, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_cst : Ref sig .tc := ⟨.hbm, 55, rfl⟩
abbrev main_call0_v0 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  scatter_S100000_S1600000x1_S1600000_n_0_0_1_wf : ScatterDims.WF S100000 S1600000x1 S1600000 [] [0] [0] 1
  dot_S100000x128_S128x32_S100000x32_1_0_0_1_n_n_wf : DotDims.WF S100000x128 S128x32 S100000x32 [1] [0] [0] [1] [] []
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The idealized kernel's whole run, with its result named.

  The program is six segments: the bias reshaped to one row; the linear layer's ten row blocks; the degree weights
  and the three gathers; the per-edge scale's two hundred edge blocks; the scatter-add over destinations; the
  final maximum with zero. Every weakly fair execution terminates without a fault, and at the end every
  buffer that lives outside a kernel's scope holds what the fold of the six segments over the launch memory
  gives it. Read at the result buffer this is the program's value; read at the five argument buffers it is the
  launch contents.
-/
import proofs.«160242_j83107617177960_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates, nothing faulting; the result buffer ends at the
    fold of the six segments read there, and each argument buffer ends as launched. -/
theorem run : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.RunValue

end
-- ==== Proof.HostChain.lean ====
/-
  The host operations around the two kernel regions, read as functions.

  Between the regions the program computes, with plain array operations: each node's degree weight
  `1/sqrt(max(deg, 1))`, where `deg` counts the edges leaving the node (a scatter-add of ones over the source
  indices); for each edge the source node's row of the linear layer's output and the degree weights of its two
  endpoints, gathered by index after a negative index has been wrapped once by the number of nodes; and, after the
  second region, the sum of every edge's message into its destination node followed by a maximum with zero.

  Each buffer a region reads, and the program's result, is one of these functions of the launch contents and of what
  the regions leave in their output arrays. The functions are named so that the comparison with the reference never
  has to open a gather or a scatter: both programs apply the same ones.
-/
import proofs.«160242_j83107617177960_2_alg».proof.Proof.Gen.KernelIdeal.Frame
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable {F : FTy → Type} [FloatOps F]

/-! ## The host functions -/

/-- An edge-index array as a column, an entry below zero first increased by the number of nodes. -/
def wrapIdx (a : IVec S1600000 32) : IVec S1600000x1 32 :=
  broadcastInDim S1600000x1 ![0] bcast_S1600000_S1600000x1_0
    (select (cmpi CmpIPredicate.slt a (broadcastInDim S1600000 ![] bcast_S_S1600000 (constantI S_ 32 0#32)))
      (addi a (broadcastInDim S1600000 ![] bcast_S_S1600000 (constantI S_ 32 100000#32))) a)

/-- Every node's degree weight: the reciprocal square root of the larger of one and the number of edges whose source
    the node is. -/
def degWeight (src : IVec S1600000 32) : FVec F S100000 .f32 :=
  Host.rsqrt
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 src)
        (broadcastInDim S1600000 ![] bcast_S_S1600000 (constant S_ .f32 0x3F800000#32)))
      (broadcastInDim S100000 ![] bcast_S_S100000 (constant S_ .f32 0x3F800000#32)))

/-- The rows of a per-node array at the nodes an index array names, one row per edge. -/
def rowsAt (h : FVec F S100000x32 .f32) (a : IVec S1600000 32) : FVec F S1600000x32 .f32 :=
  Host.gather gather_S100000x32_S1600000x1_S1600000x32_1_0_n_n_0_1_132 h (wrapIdx a)

/-- A per-node weight at the nodes an index array names, one entry per edge, as a column. -/
def weightAt (w : FVec F S100000 .f32) (a : IVec S1600000 32) : FVec F S1600000x1 .f32 :=
  broadcastInDim S1600000x1 ![0] bcast_S1600000_S1600000x1_0
    (Host.gather gather_S100000_S1600000x1_S1600000_n_0_n_n_0_1_1 w (wrapIdx a))

/-- Every edge's message added into its destination node's row, then the maximum with zero. -/
def aggregate (dst : IVec S1600000 32) (msg : FVec F S1600000x32 .f32) : FVec F S100000x32 .f32 :=
  maximumf
    (Host.scatterAdd scatter_S100000x32_S1600000x1_S1600000x32_1_0_0_1
      (broadcastInDim S100000x32 ![] bcast_S_S100000x32 (constant S_ .f32 0x00000000#32))
      (broadcastInDim S1600000x1 ![0] bcast_S1600000_S1600000x1_0 dst) msg)
    (broadcastInDim S100000x32 ![] bcast_S_S100000x32 (constant S_ .f32 0x00000000#32))

variable (m : (ℓ : Loc nD τ sig) → Buf (Elt F) ℓ) (ρ : Dev nD → PrngReg)

/-! ## The index arrays reach every segment as launched -/

theorem W1_arg (c : Dev nD) (r : Ref sig .tc) (hr : r ≠ main_v0) :
    W1 m ρ c (Proc.devRef .tc r) = m ((c : Thread nD τ).loc r) := by
  dsimp only [W1, hostOps0]
  rw [after_cons, after_nil, reshape_result_ne _ _ _ _ _ _ _ hr]

theorem W2_src (c : Dev nD) : W2 m ρ c (Proc.devRef .tc main_arg3) = m ((c : Thread nD τ).loc main_arg3) :=
  (W2_of_ne m ρ c main_arg3 (by decide)).trans (W1_arg m ρ c main_arg3 (by decide))

theorem W2_dst (c : Dev nD) : W2 m ρ c (Proc.devRef .tc main_arg4) = m ((c : Thread nD τ).loc main_arg4) :=
  (W2_of_ne m ρ c main_arg4 (by decide)).trans (W1_arg m ρ c main_arg4 (by decide))

theorem W4_dst (c : Dev nD) : W4 m ρ c (Proc.devRef .tc main_arg4) = m ((c : Thread nD τ).loc main_arg4) := by
  refine (W4_of_ne m ρ c main_arg4 (by decide)).trans ?_
  dsimp only [W3, hostOps1]
  after_results_simp
  exact W2_dst m ρ c

/-! ## What the first region reads -/

theorem x_eq (c : Dev nD) : V1 m ρ c main_arg0 = m ((c : Thread nD τ).loc main_arg0) := W1_arg m ρ c main_arg0 (by decide)
theorem weights_eq (c : Dev nD) : V1 m ρ c main_arg1 = m ((c : Thread nD τ).loc main_arg1) := W1_arg m ρ c main_arg1 (by decide)
/-- The bias reaches the first region as a one-row array. -/
theorem bias_eq (c : Dev nD) :
    V1 m ρ c main_v0 = fun i => shapeCast S1x32 (m ((c : Thread nD τ).loc main_arg2)) shapeCasts_S32_S1x32 i := by
  dsimp only [V1, W1, hostOps0]
  after_results_simp
  rfl

/-! ## What the second region reads -/

theorem rows_eq (c : Dev nD) :
    V3 m ρ c main_v15 = rowsAt (W2 m ρ c (Proc.devRef .tc main_v1)) (m ((c : Thread nD τ).loc main_arg3)) := by
  dsimp only [V3, W3, hostOps1]
  after_results_simp
  rw [W2_src]
  rfl

theorem srcWeight_eq (c : Dev nD) :
    V3 m ρ c main_v23 = weightAt (degWeight (m ((c : Thread nD τ).loc main_arg3))) (m ((c : Thread nD τ).loc main_arg3)) := by
  dsimp only [V3, W3, hostOps1]
  after_results_simp
  rw [W2_src]
  rfl

theorem dstWeight_eq (c : Dev nD) :
    V3 m ρ c main_v31 = weightAt (degWeight (m ((c : Thread nD τ).loc main_arg3))) (m ((c : Thread nD τ).loc main_arg4)) := by
  dsimp only [V3, W3, hostOps1]
  after_results_simp
  rw [W2_src, W2_dst]
  rfl

/-- The array the first region leaves is the one the gather of rows reads. -/
theorem linearOut_eq (c : Dev nD) :
    W2 m ρ c (Proc.devRef .tc main_v1) = (dat0 (V1 m ρ) c).arrAt 3 cfg0.N := W2_arr m ρ c 3

/-! ## The result -/

/-- The program's result: the aggregation, over the destination indices, of the array the second region leaves. -/
theorem result_eq (c : Dev nD) :
    W6 m ρ c (Proc.devRef .tc main_v36)
      = aggregate (m ((c : Thread nD τ).loc main_arg4)) ((dat1 (V3 m ρ) c).arrAt 3 cfg1.N) := by
  dsimp only [W6, W5, hostOps2_1, hostOps2]
  after_results_simp
  rw [W4_dst, W4_arr m ρ c 3]
  rfl

end Cert.KernelIdeal.HostChain

end
-- ==== Proof.Spec.lean ====
/-
  One graph-convolution layer over the extended reals, as two whole-array functions.

  A node `n` carries a feature row `x n` of 128 entries. The layer first applies an affine map to every node,
  `h n j = (∑ k, x n k · W j k) + b j` for the 32 output features `j` (`linear`), then forms one message per edge
  `e`: the source node's row scaled by the product of the two endpoint weights,
  `msg e j = hs e j · (s e · d e)` (`edgeScale`), where `hs e` is the row gathered at the edge's source and `s e`,
  `d e` are the degree weights gathered at its source and its destination, each held as a one-column array.

  Both functions are stated index by index over the literal shapes, with no reference to either program: the
  blocked evaluation and the whole-array evaluation are each shown equal to them.
-/
import Idealize.ShloMosaic.PureOps.Ideal
import Idealize.ShloMosaic.Lib.ValueIdx

noncomputable section

namespace Cert.GraphConv

open Idealize.ShloMosaic Idealize.ShloMosaic.ValueIdx
open scoped BigOperators

/-- The affine map of every node: entry `(n, j)` is the inner product of node `n`'s 128 features with row `j` of
    the weight matrix, plus the bias of output feature `j`. -/
def linear (x : FVec Ideal ⟨2, ![100000, 128]⟩ .f32) (W : FVec Ideal ⟨2, ![32, 128]⟩ .f32)
    (b : FVec Ideal ⟨1, ![32]⟩ .f32) : FVec Ideal ⟨2, ![100000, 32]⟩ .f32 :=
  fun i => (∑ k : Fin 128, x (ix2 (i 0) k) * W (ix2 (i 1) k)) + b (ix1 (i 1))

/-- The message of every edge: entry `(e, j)` is the gathered source row's entry `(e, j)` times the product of
    edge `e`'s source weight and destination weight (each the single column of its array). -/
def edgeScale (hs : FVec Ideal ⟨2, ![1600000, 32]⟩ .f32) (s d : FVec Ideal ⟨2, ![1600000, 1]⟩ .f32) :
    FVec Ideal ⟨2, ![1600000, 32]⟩ .f32 :=
  fun i => hs i * (s (ix2 (i 0) 0) * d (ix2 (i 0) 0))

theorem linear_apply (x : FVec Ideal ⟨2, ![100000, 128]⟩ .f32) (W : FVec Ideal ⟨2, ![32, 128]⟩ .f32)
    (b : FVec Ideal ⟨1, ![32]⟩ .f32) (n : Fin 100000) (j : Fin 32) :
    linear x W b (ix2 n j) = (∑ k : Fin 128, x (ix2 n k) * W (ix2 j k)) + b (ix1 j) := rfl

theorem edgeScale_apply (hs : FVec Ideal ⟨2, ![1600000, 32]⟩ .f32) (s d : FVec Ideal ⟨2, ![1600000, 1]⟩ .f32)
    (e : Fin 1600000) (j : Fin 32) :
    edgeScale hs s d (ix2 e j) = hs (ix2 e j) * (s (ix2 e 0) * d (ix2 e 0)) := rfl

end Cert.GraphConv

end
-- ==== Proof.Layer.lean ====
/-
  The whole graph-convolution layer as ONE function of the five argument arrays, over the extended reals.

  `layer x W b src dst`: every node's features through the affine map; for every edge the source node's row,
  scaled by the product of the degree weights of the edge's source and destination; every edge's message added into
  its destination node's row; the maximum with zero. Both programs' results are posted at this one term.
-/
import proofs.«160242_j83107617177960_2_alg».proof.Proof.HostChain
import proofs.«160242_j83107617177960_2_alg».proof.Proof.Spec

set_option maxRecDepth 16384

noncomputable section

namespace Cert.KernelIdeal.HostChain

open Cert.KernelIdeal Cert.KernelIdeal.Gen
open Idealize.ShloMosaic

/-- One layer: affine map, per-edge scaled source rows, aggregation over destinations, maximum with zero. -/
def layer (x : FVec Ideal S100000x128 .f32) (W : FVec Ideal S32x128 .f32) (b : FVec Ideal S32 .f32)
    (src dst : IVec S1600000 32) : FVec Ideal S100000x32 .f32 :=
  aggregate dst
    (Cert.GraphConv.edgeScale (rowsAt (Cert.GraphConv.linear x W b) src)
      (weightAt (degWeight src) src) (weightAt (degWeight src) dst))

end Cert.KernelIdeal.HostChain

end
-- ==== Proof.LinearBlocks.lean ====
/-
  The affine layer of the graph convolution, block by block.

  The nodes are cut into 10 blocks of 10000 rows. For block `t` the layer reads rows `10000·t … 10000·t + 9999` of the
  feature array, the whole weight matrix and the whole one-row bias, and writes the same rows of the result:
  entry `(p, q)` of the block is `(∑ k, x (10000·t + p, k) · W (q, k)) + b (0, q)`. The narrowing of both factors before
  the product is the identity over the extended reals, the weight matrix is read through its transpose, the product
  starts from a zero accumulator, and the bias row is repeated down the rows.

  Each block written is therefore the block of ONE function of the whole arrays (`Cert.GraphConv.linear`), the 10
  blocks tile the 100000 rows (row `r` lies in block `r / 10000`), and so the result array ends holding that function.
-/
import proofs.«160242_j83107617177960_2_alg».proof.Proof.Gen.KernelIdeal.Frame
import proofs.«160242_j83107617177960_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.LinearBlocks

open Cert.KernelIdeal Cert.KernelIdeal.Gen Idealize.ShloMosaic Idealize.ShloMosaic.TcCoe Idealize.ShloMosaic.ValueIdx Idealize.SL.Sem
open scoped BigOperators

/-! ## One entry of a block -/

/-- The contraction of the block product runs over the one shared axis of 128 features: on the left factor it is
    axis 1, the row being the output's row; -/
theorem lhs_row (i : S10000x32.Idx) (k : dot_S10000x128_S128x32_S10000x32_1_0_0_1_n_n.contr.Idx) :
    (dot_S10000x128_S128x32_S10000x32_1_0_0_1_n_n.lhsIdx i k 0).val = (i 0).val := by
  unfold DotDims.lhsIdx
  rw [dif_neg (show ¬(0 : Fin S10000x128.rank) ∈ dot_S10000x128_S128x32_S10000x32_1_0_0_1_n_n.lhsBatch by decide),
    dif_pos (show (0 : Fin S10000x128.rank) ∈ dot_S10000x128_S128x32_S10000x32_1_0_0_1_n_n.lhsNonContracting by decide)]
  rfl
theorem lhs_feature (i : S10000x32.Idx) (k : dot_S10000x128_S128x32_S10000x32_1_0_0_1_n_n.contr.Idx) :
    (dot_S10000x128_S128x32_S10000x32_1_0_0_1_n_n.lhsIdx i k 1).val = (k ⟨0, by decide⟩).val :=
  dot_S10000x128_S128x32_S10000x32_1_0_0_1_n_n.lhsIdx_val_of_single rfl i k
/-- on the right factor it is axis 0, the column being the output's column. -/
theorem rhs_feature (i : S10000x32.Idx) (k : dot_S10000x128_S128x32_S10000x32_1_0_0_1_n_n.contr.Idx) :
    (dot_S10000x128_S128x32_S10000x32_1_0_0_1_n_n.rhsIdx i k 0).val = (k ⟨0, by decide⟩).val :=
  dot_S10000x128_S128x32_S10000x32_1_0_0_1_n_n.rhsIdx_val_of_single rfl i k
theorem rhs_col (i : S10000x32.Idx) (k : dot_S10000x128_S128x32_S10000x32_1_0_0_1_n_n.contr.Idx) :
    (dot_S10000x128_S128x32_S10000x32_1_0_0_1_n_n.rhsIdx i k 1).val = (i 1).val := by
  unfold DotDims.rhsIdx
  rw [dif_neg (show ¬(1 : Fin S128x32.rank) ∈ dot_S10000x128_S128x32_S10000x32_1_0_0_1_n_n.rhsBatch by decide),
    dif_pos (show (1 : Fin S128x32.rank) ∈ dot_S10000x128_S128x32_S10000x32_1_0_0_1_n_n.rhsNonContracting by decide)]
  rfl

/-- The block product from a zero accumulator, at entry `(p, q)`: the sum over the 128 features of the left factor's
    row `p` times the right factor's column `q`. -/
theorem product_apply (a : FVec Ideal S10000x128 .bf16) (b : FVec Ideal S128x32 .bf16) (p : Fin 10000) (q : Fin 32) :
    matmul dot_S10000x128_S128x32_S10000x32_1_0_0_1_n_n none a b (constant (F := Ideal) S10000x32 .f32 0x00000000#32) (ix2 p q)
      = ∑ k : Fin 128, a (ix2 p k) * b (ix2 k q) := by
  show FloatOps.matmul dot_S10000x128_S128x32_S10000x32_1_0_0_1_n_n none a b (constant (F := Ideal) S10000x32 .f32 0x00000000#32) (ix2 p q) = _
  rw [Ideal.matmul_constant_zero_apply, ← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 p q) ((contrEquiv1 dot_S10000x128_S128x32_S10000x32_1_0_0_1_n_n 128 rfl rfl).symm k) = ix2 p k :=
    funext fun d => Fin.ext (by
      match d with
      | ⟨0, _⟩ => exact lhs_row _ _
      | ⟨1, _⟩ => exact (lhs_feature _ _).trans hk)
  have er : dot_S10000x128_S128x32_S10000x32_1_0_0_1_n_n.rhsIdx (ix2 p q) ((contrEquiv1 dot_S10000x128_S128x32_S10000x32_1_0_0_1_n_n 128 rfl rfl).symm k) = ix2 k q :=
    funext fun d => Fin.ext (by
      match d with
      | ⟨0, _⟩ => exact (rhs_feature _ _).trans hk
      | ⟨1, _⟩ => exact rhs_col _ _)
  rw [el, er]

/-- The weight matrix is read through its transpose: entry `(k, q)` of the transpose is entry `(q, k)`. -/
theorem transposed_apply (w : FVec Ideal S32x128 .bf16) (k : Fin 128) (q : Fin 32) :
    transpose S128x32 [1, 0] w transposes_S32x128_p1_0_S128x32 (ix2 k q) = w (ix2 q k) :=
  transpose_apply [1, 0] w transposes_S32x128_p1_0_S128x32 (ix2 k q) (ix2 q k) (fun b => by
    match b with
    | ⟨0, _⟩ => rfl
    | ⟨1, _⟩ => rfl)

/-- The bias row repeated down the 10000 rows of a block: entry `(p, q)` is entry `q` of the row. -/
theorem bias_rows_apply (b : FVec Ideal S1x32 .f32) (p : Fin 10000) (q : Fin 32) :
    broadcastTo S10000x32 b broadcasts_S1x32_S10000x32 (ix2 p q) = b (ix2 0 q) :=
  broadcastTo_apply b broadcasts_S1x32_S10000x32 (ix2 p q) (ix2 0 q) (fun a => by
    match a with
    | ⟨0, _⟩ => show 0 = if (1 : Nat) = 1 then 0 else p.val; rw [if_pos rfl]
    | ⟨1, _⟩ => show q.val = if (32 : Nat) = 1 then 0 else q.val; rw [if_neg (by decide)])

/-- THE BODY'S STORE at entry `(p, q)` of a block: row `p` of the feature block against row `q` of the weight matrix,
    plus entry `q` of the bias row. -/
theorem payload_apply (x0 : Vec Ideal S10000x128 .f32) (x1 : Vec Ideal S32x128 .f32) (x2 : Vec Ideal S1x32 .f32)
    (p : Fin 10000) (q : Fin 32) :
    Gen.k0_pay1 x0 x1 x2 (ix2 p q) = (∑ k : Fin 128, x0 (ix2 p k) * x1 (ix2 q k)) + x2 (ix2 0 q) := by
  unfold Gen.k0_pay1
  rw [addf_apply, product_apply, shapeCast_self, bias_rows_apply]
  refine congrArg (· + x2 (ix2 0 q)) (Finset.sum_congr rfl fun k _ => ?_)
  rw [transposed_apply, truncf_apply, truncf_apply]

/-! ## The blocks' places in the arrays -/

/-- The body reads and writes each staging block from its origin. -/
theorem origin_eq : (![0, 0] : Fin 2 → Nat) = fun _ => 0 := funext fun a => by fin_cases a <;> rfl

/-- The block indices at point `t`, decided over the 10 points: the feature block and the result block are block `t`
    of the rows and the only block of the columns; the weight matrix and the bias row are their arrays whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are 10 points. -/
theorem point_lt (t : Fin cfg0.N) : t.val < 10 := Nat.lt_of_lt_of_eq (show t.val < grid0.N from t.isLt) N_0

/-- WHAT POINT `t` WRITES BACK is block `t` of the affine map of the whole arrays as the region finds them. -/
theorem flushed_eq (V : (c : Dev nD) → (b : Ref sig .tc) → Buf (Elt Ideal) ((c : Thread nD τ).loc b)) (c : Dev nD) (t : Fin cfg0.N) :
    (Gen.dat0 (F := Ideal) V c).flushed 3 t
      = ((cfg0.win 3).blk t).view.read (Elt Ideal)
          (Cert.GraphConv.linear (V c main_arg0) (V c main_arg1) (fun j => V c main_v0 (ix2 0 (j 0)))) := by
  show (cfg0.win 3).cut (grid0.coords t) ((Gen.dat0 V c).after 3 t) = _
  rw [Gen.after0_3]
  unfold Gen.out0_3
  rw [View.canon_unit_zero origin_eq]
  simp only [View.ld_unit_zero (S := S10000x128) origin_eq, View.ld_unit_zero (S := S32x128) origin_eq,
    View.ld_unit_zero (S := S1x32) origin_eq]
  obtain ⟨e00, e01, e10, e11, e20, e21, e30, e31⟩ := block_indices t
  have ht := point_lt t
  funext j
  obtain ⟨p, q, rfl⟩ : ∃ (p : Fin 10000) (q : Fin 32), j = ix2 p q := ⟨j 0, j 1, eq_ix2 j⟩
  -- the row of the whole arrays that row `p` of block `t` is
  have hr : t.val * 10000 + p.val < 100000 := by have := p.isLt; omega
  have h3 : ((cfg0.win 3).blk t).view.emb (ix2 p q) = ix2 (⟨t.val * 10000 + p.val, hr⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 32 + 1 * q.val = q.val; omega
  have h0 : ∀ k : Fin 128, ((cfg0.win 0).blk t).view.emb (ix2 p k) = ix2 (⟨t.val * 10000 + p.val, hr⟩ : Fin 100000) k := fun k => by
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : ∀ k : Fin 128, ((cfg0.win 1).blk t).view.emb (ix2 q k) = ix2 q k := fun k => by
    funext a; apply Fin.ext
    match a with
    | ⟨0, _⟩ => show win0_1.index t (0 : Fin 2) * 32 + 1 * q.val = q.val; omega
    | ⟨1, _⟩ => show win0_1.index t (1 : Fin 2) * 128 + 1 * k.val = k.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 32 + 1 * q.val = q.val; omega
  show Gen.k0_pay1 (Gen.iblk0 V c 0 t) (Gen.iblk0 V c 1 t) (Gen.iblk0 V c 2 t) (ix2 p q)
      = Cert.GraphConv.linear (V c main_arg0) (V c main_arg1) (fun j => V c main_v0 (ix2 0 (j 0))) (((cfg0.win 3).blk t).view.emb (ix2 p q))
  refine (payload_apply (Gen.iblk0 V c 0 t) (Gen.iblk0 V c 1 t) (Gen.iblk0 V c 2 t) p q).trans ?_
  refine Eq.trans ?_ (congrArg (Cert.GraphConv.linear (V c main_arg0) (V c main_arg1) (fun j => V c main_v0 (ix2 0 (j 0)))) h3).symm
  rw [Cert.GraphConv.linear_apply]
  refine congrArg₂ (· + ·) (Finset.sum_congr rfl fun k _ => congrArg₂ (· * ·) ?_ ?_) ?_
  · show V c main_arg0 (((cfg0.win 0).blk t).view.emb (ix2 p k)) = V c main_arg0 (ix2 (⟨t.val * 10000 + p.val, hr⟩ : Fin 100000) k)
    rw [h0]
  · show V c main_arg1 (((cfg0.win 1).blk t).view.emb (ix2 q k)) = V c main_arg1 (ix2 q k)
    rw [h1]
  · show V c main_v0 (((cfg0.win 2).blk t).view.emb (ix2 (0 : Fin 1) q)) = V c main_v0 (ix2 (0 : Fin 1) q)
    rw [h2]

/-! ## The blocks tile the result -/

/-- An index of the result array is in point `t`'s block iff each coordinate is in the block's range on its axis. -/
theorem mem_block (t : Fin cfg0.N) (i : S100000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v1).slice (win0_3.rect t)).set ↔ _
  rw [View.set_slice_whole, Rect.mem_set_unit]
  exact Iff.rfl

/-- Every index of the result array lies in the block some point writes back: row `r` in block `r / 10000`. -/
theorem cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : (i 0).val / 10000 < grid0.N := by rw [N_0]; omega
  obtain ⟨t, ht⟩ : ∃ t : Fin cfg0.N, t.val = (i 0).val / 10000 := ⟨⟨(i 0).val / 10000, hN⟩, rfl⟩
  obtain ⟨-, -, -, -, -, -, e30, e31⟩ := block_indices t
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 32 ≤ (i 1).val ∧ (i 1).val < win0_3.index t (1 : Fin 2) * 32 + 32
    omega

/-! ## The result array -/

/-- THE RESULT ARRAY after the 10 points is the affine map of the whole arrays as the region finds them: every point
    writes back its block of that one function, and the blocks cover the array. -/
theorem array_eq (V : (c : Dev nD) → (b : Ref sig .tc) → Buf (Elt Ideal) ((c : Thread nD τ).loc b)) (c : Dev nD) :
    (Gen.dat0 (F := Ideal) V c).arrAt 3 cfg0.N
      = Cert.GraphConv.linear (V c main_arg0) (V c main_arg1) (fun j => V c main_v0 (ix2 0 (j 0))) :=
  (Gen.dat0 V c).arrAt_eq_of_cover 3 _ (fun t _ => flushed_eq V c t) cover

end Cert.KernelIdeal.LinearBlocks

end
-- ==== Proof.EdgeBlocks.lean ====
/-
  The per-edge scale, from blocks to the whole array.

  The edge pipeline walks 200 grid points; point `t` holds rows `8000·t … 8000·t + 7999` of the gathered source rows and of
  the two one-column weight arrays, and writes back the same rows of the message array. What it writes at local row `p`,
  lane `q` is the row entry times the product of the two weights of that row. Every edge `e` lies in exactly the block of
  point `e / 8000`, so the message array ends holding, at every `(e, q)`, the source row's entry times the two weights of
  edge `e`: the whole-array function `Cert.GraphConv.edgeScale` of the three input arrays.
-/
import proofs.«160242_j83107617177960_2_alg».proof.Proof.Gen.KernelIdeal.Frame
import proofs.«160242_j83107617177960_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.EdgeBlocks

open Cert.KernelIdeal Cert.KernelIdeal.Gen Idealize.ShloMosaic Idealize.ShloMosaic.TcCoe Idealize.ShloMosaic.ValueIdx Idealize.SL.Sem
open Idealize.ShloMosaic.Pipeline (Dat)

/-! ## What one grid point computes, entry by entry -/

/-- A one-column array `[8000, 1]` broadcast over the 32 lanes reads, at `(p, q)`, the column's entry of row `p`. -/
theorem broadcast_column_apply (v : FVec Ideal S8000x1 .f32) (p : Fin 8000) (q : Fin 32) :
    broadcastTo S8000x32 v broadcasts_S8000x1_S8000x32 (ix2 p q) = v (ix2 p (0 : Fin 1)) := by
  refine broadcastTo_apply v broadcasts_S8000x1_S8000x32 (ix2 p q) (ix2 p (0 : Fin 1)) fun ax => ?_
  match ax with
  | ⟨0, _⟩ => rfl
  | ⟨1, _⟩ => rfl

/-- The stored value at local row `p`, lane `q`: the row entry times the product of the row's two weights. -/
theorem payload_apply (s0 d0 : Vec Ideal S8000x1 .f32) (h0 : Vec Ideal S8000x32 .f32) (p : Fin 8000) (q : Fin 32) :
    Gen.k1_pay1 s0 d0 h0 (ix2 p q) = h0 (ix2 p q) * (s0 (ix2 p (0 : Fin 1)) * d0 (ix2 p (0 : Fin 1))) := by
  unfold Gen.k1_pay1
  simp only [shapeCast_self]
  rw [mulf_apply, broadcast_column_apply, mulf_apply]

/-! ## Where a grid point's blocks sit in the arrays -/

theorem offsets_zero : (![0, 0] : Fin 2 → Nat) = fun _ => 0 := funext fun a => by fin_cases a <;> rfl

/-- Every window's block at grid point `t` is block `t` along the edge axis and block `0` along the other axis. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- With the three blocks' entries at local row `p` read off the arrays at edge `e`, the value stored at `(p, q)` is
    the message of edge `e` at lane `q`. -/
theorem point_apply (hs : FVec Ideal ⟨2, ![1600000, 32]⟩ .f32) (s d : FVec Ideal ⟨2, ![1600000, 1]⟩ .f32)
    (s0 d0 : Vec Ideal S8000x1 .f32) (h0 : Vec Ideal S8000x32 .f32) (p : Fin 8000) (q : Fin 32) (e : Fin 1600000)
    (hh : h0 (ix2 p q) = hs (ix2 e q)) (hs0 : s0 (ix2 p (0 : Fin 1)) = s (ix2 e (0 : Fin 1)))
    (hd0 : d0 (ix2 p (0 : Fin 1)) = d (ix2 e (0 : Fin 1))) :
    Gen.k1_pay1 s0 d0 h0 (ix2 p q) = Cert.GraphConv.edgeScale hs s d (ix2 e q) := by
  rw [payload_apply, Cert.GraphConv.edgeScale_apply, hh, hs0, hd0]

variable (V : (c : Dev nD) → (b : Ref sig .tc) → Buf (Elt Ideal) ((c : Thread nD τ).loc b))

/-- The source-row block of point `t` at local row `p` is the array's row `8000·t + p`. -/
theorem rows_block_apply (c : Dev nD) (t : Fin cfg1.N) (p : Fin 8000) (q : Fin 32) (e : Fin 1600000)
    (he : e.val = t.val * 8000 + p.val) :
    Gen.iblk1 V c 0 t (ix2 p q) = V c main_v15 (ix2 e q) := by
  obtain ⟨a0, a1, -⟩ := block_index t
  show V c main_v15 (((cfg1.win 0).blk t).view.emb (ix2 p q)) = V c main_v15 (ix2 e q)
  refine congrArg _ (funext fun a => Fin.ext ?_)
  match a with
  | ⟨0, _⟩ => show win1_0.index t (0 : Fin 2) * 8000 + 1 * p.val = e.val; rw [a0, he]; omega
  | ⟨1, _⟩ => show win1_0.index t (1 : Fin 2) * 32 + 1 * q.val = q.val; rw [a1]; omega

/-- The source-weight block of point `t` at local row `p` is the weight of edge `8000·t + p`. -/
theorem src_weight_block_apply (c : Dev nD) (t : Fin cfg1.N) (p : Fin 8000) (e : Fin 1600000)
    (he : e.val = t.val * 8000 + p.val) :
    Gen.iblk1 V c 1 t (ix2 p (0 : Fin 1)) = V c main_v23 (ix2 e (0 : Fin 1)) := by
  obtain ⟨-, -, a0, a1, -⟩ := block_index t
  show V c main_v23 (((cfg1.win 1).blk t).view.emb (ix2 p (0 : Fin 1))) = V c main_v23 (ix2 e (0 : Fin 1))
  refine congrArg _ (funext fun a => Fin.ext ?_)
  match a with
  | ⟨0, _⟩ => show win1_1.index t (0 : Fin 2) * 8000 + 1 * p.val = e.val; rw [a0, he]; omega
  | ⟨1, _⟩ => show win1_1.index t (1 : Fin 2) * 1 + 1 * 0 = 0; rw [a1]

/-- The destination-weight block of point `t` at local row `p` is the weight of edge `8000·t + p`. -/
theorem dst_weight_block_apply (c : Dev nD) (t : Fin cfg1.N) (p : Fin 8000) (e : Fin 1600000)
    (he : e.val = t.val * 8000 + p.val) :
    Gen.iblk1 V c 2 t (ix2 p (0 : Fin 1)) = V c main_v31 (ix2 e (0 : Fin 1)) := by
  obtain ⟨-, -, -, -, a0, a1, -⟩ := block_index t
  show V c main_v31 (((cfg1.win 2).blk t).view.emb (ix2 p (0 : Fin 1))) = V c main_v31 (ix2 e (0 : Fin 1))
  refine congrArg _ (funext fun a => Fin.ext ?_)
  match a with
  | ⟨0, _⟩ => show win1_2.index t (0 : Fin 2) * 8000 + 1 * p.val = e.val; rw [a0, he]; omega
  | ⟨1, _⟩ => show win1_2.index t (1 : Fin 2) * 1 + 1 * 0 = 0; rw [a1]

/-! ## What a grid point writes back -/

/-- Point `t` writes back block `t` of the whole-array message function of the three input arrays. -/
theorem flushed_eq (c : Dev nD) (t : Fin cfg1.N) :
    (Gen.dat1 (F := Ideal) V c).flushed 3 t
      = ((cfg1.win 3).blk t).view.read (Elt Ideal)
          (Cert.GraphConv.edgeScale (V c main_v15) (V c main_v23) (V c main_v31)) := by
  show (cfg1.win 3).cut (grid1.coords t) ((Gen.dat1 V c).after 3 t) = _
  rw [Gen.after1_3]
  unfold Gen.out1_3
  rw [View.canon_unit_zero offsets_zero]
  simp only [View.ld_unit_zero (S := S8000x1) offsets_zero, View.ld_unit_zero (S := S8000x32) offsets_zero]
  funext j
  obtain ⟨p, q, rfl⟩ : ∃ (p : Fin 8000) (q : Fin 32), j = ix2 p q := ⟨j 0, j 1, eq_ix2 j⟩
  have ht : t.val < 200 := t.isLt.trans_eq Gen.N_1
  obtain ⟨e, he⟩ : ∃ e : Fin 1600000, e.val = t.val * 8000 + p.val := ⟨⟨t.val * 8000 + p.val, by have := p.isLt; omega⟩, rfl⟩
  obtain ⟨-, -, -, -, -, -, b0, b1⟩ := block_index t
  have hemb : ((cfg1.win 3).blk t).view.emb (ix2 p q) = ix2 e q := by
    funext a; apply Fin.ext
    match a with
    | ⟨0, _⟩ => show win1_3.index t (0 : Fin 2) * 8000 + 1 * p.val = e.val; rw [b0, he]; omega
    | ⟨1, _⟩ => show win1_3.index t (1 : Fin 2) * 32 + 1 * q.val = q.val; rw [b1]; omega
  show Gen.k1_pay1 (Gen.iblk1 V c 1 t) (Gen.iblk1 V c 2 t) (Gen.iblk1 V c 0 t) (ix2 p q)
    = Cert.GraphConv.edgeScale (V c main_v15) (V c main_v23) (V c main_v31) (((cfg1.win 3).blk t).view.emb (ix2 p q))
  rw [hemb]
  exact point_apply _ _ _ _ _ _ p q e (rows_block_apply V c t p q e he) (src_weight_block_apply V c t p e he)
    (dst_weight_block_apply V c t p e he)

/-! ## The blocks cover the array -/

/-- An index of the message array is in point `t`'s block iff each coordinate is in the block's range on its axis. -/
theorem mem_block (t : Fin cfg1.N) (i : S1600000x32.Idx) :
    i ∈ ((cfg1.win 3).blk t).view.set ↔ ∀ a : Fin 2, win1_3.index t a * S8000x32.size a ≤ (i a).val
      ∧ (i a).val < win1_3.index t a * S8000x32.size a + S8000x32.size a := by
  show i ∈ ((View.whole main_v32).slice (win1_3.rect t)).set ↔ _
  rw [View.set_slice_whole, Rect.mem_set_unit]
  exact Iff.rfl

/-- Edge `e` lies in the block of grid point `e / 8000`, which is written back. -/
theorem cover (i : S1600000x32.Idx) :
    ∃ t : Fin cfg1.N, (cfg1.win 3).flush t = true ∧ i ∈ ((cfg1.win 3).blk t).view.set := by
  have h0 : (i 0).val < 1600000 := (i 0).isLt
  have h1 : (i 1).val < 32 := (i 1).isLt
  obtain ⟨t, ht⟩ : ∃ t : Fin cfg1.N, t.val = (i 0).val / 8000 :=
    ⟨⟨(i 0).val / 8000, by rw [show cfg1.N = 200 from Gen.N_1]; omega⟩, rfl⟩
  obtain ⟨-, -, -, -, -, -, b0, b1⟩ := block_index t
  refine ⟨t, Gen.flush1_3 t, ?_⟩
  rw [mem_block]
  intro a
  match a with
  | ⟨0, _⟩ =>
    show win1_3.index t (0 : Fin 2) * 8000 ≤ (i 0).val ∧ (i 0).val < win1_3.index t (0 : Fin 2) * 8000 + 8000
    rw [b0, ht]; omega
  | ⟨1, _⟩ =>
    show win1_3.index t (1 : Fin 2) * 32 ≤ (i 1).val ∧ (i 1).val < win1_3.index t (1 : Fin 2) * 32 + 32
    rw [b1]; omega

/-! ## The whole array -/

/-- After the 200 grid points the message array holds, at every edge and lane, the gathered source row's entry times the
    product of the edge's two weights. -/
theorem array_eq (V : (c : Dev nD) → (b : Ref sig .tc) → Buf (Elt Ideal) ((c : Thread nD τ).loc b)) (c : Dev nD) :
    (Gen.dat1 (F := Ideal) V c).arrAt 3 cfg1.N
      = Cert.GraphConv.edgeScale (V c main_v15) (V c main_v23) (V c main_v31) :=
  (Gen.dat1 V c).arrAt_eq_of_cover 3 _ (fun t _ => flushed_eq V c t) cover

end Cert.KernelIdeal.EdgeBlocks

end
-- ==== Proof.KernelValue.lean ====
/-
  The idealized kernel computes the layer.

  The program's result is the aggregation, over the destination indices, of the array the per-edge region leaves;
  that array is, block by block and hence as a whole, the per-edge scale of the three arrays the region reads; those
  are the rows of the linear region's output gathered at the sources and the two gathered degree-weight columns; and
  the linear region's output is, block by block and hence as a whole, the affine map of the features, the weight
  matrix and the bias (which reaches the region as a one-row array: read back at its only row it is the bias).
  Substituting each into the next gives the layer of the five launch arrays.
-/
import proofs.«160242_j83107617177960_2_alg».proof.Proof.KernelRun
import proofs.«160242_j83107617177960_2_alg».proof.Proof.Layer
import proofs.«160242_j83107617177960_2_alg».proof.Proof.LinearBlocks
import proofs.«160242_j83107617177960_2_alg».proof.Proof.EdgeBlocks
import Idealize.ShloMosaic.Lib.ValueLayout

set_option maxRecDepth 16384

noncomputable section

namespace Cert.KernelIdeal.RunValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- A 32-entry array laid out as one row, read back along that row, is the array. -/
theorem row_of_bias (b : FVec Ideal S32 .f32) :
    (fun j : S32.Idx => shapeCast S1x32 b shapeCasts_S32_S1x32 (ix2 (0 : Fin 1) (j 0))) = b := by
  funext j
  obtain ⟨q, rfl⟩ : ∃ q : Fin 32, j = ix1 q := ⟨j 0, eq_ix1 j⟩
  exact shapeCast_a_1a_apply b shapeCasts_S32_S1x32 (0 : Fin 1) q

/-- The bias as the linear region finds it, read back along its one row, is the launch bias. -/
theorem bias_row (c : Dev nD) :
    (fun j : S32.Idx => V1 m ρ c main_v0 (ix2 (0 : Fin 1) (j 0))) = m ((c : Thread nD τ).loc main_arg2) := by
  rw [HostChain.bias_eq]
  exact row_of_bias _

/-- The linear region's output array is the affine map of the launch arrays. -/
theorem linear_value (c : Dev nD) :
    W2 m ρ c (Proc.devRef .tc main_v1)
      = Cert.GraphConv.linear (m ((c : Thread nD τ).loc main_arg0)) (m ((c : Thread nD τ).loc main_arg1))
          (m ((c : Thread nD τ).loc main_arg2)) := by
  rw [HostChain.linearOut_eq, LinearBlocks.array_eq, HostChain.x_eq, HostChain.weights_eq, bias_row]

/-- The program's result buffer, after the six segments, holds the layer of the launch arrays. -/
theorem value (c : Dev nD) :
    W6 m ρ c (Proc.devRef .tc main_v36)
      = HostChain.layer (m ((c : Thread nD τ).loc main_arg0)) (m ((c : Thread nD τ).loc main_arg1))
          (m ((c : Thread nD τ).loc main_arg2)) (m ((c : Thread nD τ).loc main_arg3)) (m ((c : Thread nD τ).loc main_arg4)) := by
  rw [HostChain.result_eq, EdgeBlocks.array_eq, HostChain.rows_eq, HostChain.srcWeight_eq, HostChain.dstWeight_eq,
    linear_value]
  rfl

/-- Every weakly fair execution of the idealized kernel terminates, nothing faulting, with the result at the layer of
    the launch arrays and the five arguments unchanged. -/
theorem run_layer : θ_run defs (onTc (τ := τ) (main (F := Ideal))) ⟨m, fun _ => 0, ρ⟩ (fun r => ∀ c : Dev nD,
      r.2.mem ((c.tc : Thread nD τ).loc main_v36)
        = HostChain.layer (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (value m ρ c), (h c).2⟩) (run m ρ)

end Cert.KernelIdeal.RunValue

end
-- ==== Proof.RefTerms.lean ====
/-
  The whole-array evaluation of the layer, read index by index.

  The whole-array program computes the affine map as one contraction of the node features with the transposed
  weight matrix, plus the bias broadcast over the nodes, and the messages as one product of the gathered rows with
  the broadcast product of the two endpoint weights. Each of these two composed terms is shown equal to the
  corresponding function of the specification: at an index `(n, j)` the contraction is the sum over the 128
  features of `x n k · W j k` (the transpose only swaps the two coordinates of the weight matrix), the broadcast
  bias is `b j`, and the broadcast weight product at `(e, j)` is `s e · d e`. Both sides are then the same sum and
  the same products in the same grouping, so no arithmetic law is used.
-/
import proofs.«160242_j83107617177960_2_alg».proof.Proof.Gen.ReferenceIdeal.Read
import proofs.«160242_j83107617177960_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefTerms

open Cert.ReferenceIdeal Cert.ReferenceIdeal.Gen Idealize.ShloMosaic Idealize.ShloMosaic.TcCoe Idealize.ShloMosaic.ValueIdx
open scoped BigOperators

/-- Row `n`, column `k` of the left operand: the contraction reads the node features at `(n, k)`. -/
theorem lidx_eq (n : Fin 100000) (j : Fin 32) (k : Fin 128) :
    Read.lidx_main_v8 (ix2 n j) k = ix2 n k :=
  funext fun a => Fin.ext (by match a with | ⟨0, _⟩ => rfl | ⟨1, _⟩ => rfl)

/-- The right operand is the transposed weight matrix: its entry `(k, j)` is the weight matrix's entry `(j, k)`. -/
theorem ridx_eq (n : Fin 100000) (j : Fin 32) (k : Fin 128) :
    Read.idx_main_v7 (Read.ridx_main_v8 (ix2 n j) k) = ix2 j k :=
  funext fun a => Fin.ext (by match a with | ⟨0, _⟩ => rfl | ⟨1, _⟩ => rfl)

/-- The bias, broadcast first to one row and then over all nodes, is read at the output feature `j`. -/
theorem bidx_eq (n : Fin 100000) (j : Fin 32) :
    Read.idx_main_v9 (Read.idx_main_v10 (ix2 n j)) = ix1 j :=
  funext fun a => Fin.ext (by match a with | ⟨0, _⟩ => rfl)

/-- The whole-array affine map is the specification's `linear`. -/
theorem linear_eq (x : FVec Ideal S100000x128 .f32) (W : FVec Ideal S32x128 .f32) (b : FVec Ideal S32 .f32) :
    addf (Host.dotGeneral (F := Ideal) dot_S100000x128_S128x32_S100000x32_1_0_0_1_n_n none x
            (transpose S128x32 [1, 0] W transposes_S32x128_S128x32_1_0))
         (broadcastInDim S100000x32 ![0, 1] bcast_S1x32_S100000x32_0_1
            (broadcastInDim S1x32 ![1] bcast_S32_S1x32_1 b))
      = Cert.GraphConv.linear x W b := by
  funext i
  obtain ⟨n, j, rfl⟩ : ∃ (n : Fin 100000) (j : Fin 32), i = ix2 n j := ⟨i 0, i 1, eq_ix2 i⟩
  show Read.val_main_v11 (F := Ideal) x W b (ix2 n j) = _
  rw [Read.val_main_v11_apply, Read.val_main_v8_apply, Read.val_main_v10_apply, Read.val_main_v9_apply,
    Cert.GraphConv.linear_apply, bidx_eq]
  simp only [Read.val_main_v7_apply, lidx_eq, ridx_eq]
  rfl

/-- The product of the two endpoint weights, broadcast to one column and then over the 32 features, is read at
    the edge `e`. -/
theorem edgeScale_eq (hs : FVec Ideal S1600000x32 .f32) (s d : FVec Ideal S1600000 .f32) :
    mulf hs (broadcastInDim S1600000x32 ![0, 1] bcast_S1600000x1_S1600000x32_0_1
              (broadcastInDim S1600000x1 ![0] bcast_S1600000_S1600000x1_0 (mulf s d)))
      = Cert.GraphConv.edgeScale hs (broadcastInDim S1600000x1 ![0] bcast_S1600000_S1600000x1_0 s)
          (broadcastInDim S1600000x1 ![0] bcast_S1600000_S1600000x1_0 d) := by
  funext i
  obtain ⟨e, j, rfl⟩ : ∃ (e : Fin 1600000) (j : Fin 32), i = ix2 e j := ⟨i 0, i 1, eq_ix2 i⟩
  -- a one-column array broadcast from a vector reads the vector at the row
  have col : ∀ (v : FVec Ideal S1600000 .f32),
      broadcastInDim S1600000x1 ![0] bcast_S1600000_S1600000x1_0 v (ix2 e 0) = v (ix1 e) := fun v =>
    broadcastInDim_apply _ bcast_S1600000_S1600000x1_0 v (ix2 e 0) (ix1 e) (fun a => match a with
      | ⟨0, _⟩ => by show e.val = if (1600000 : Nat) = 1 then 0 else e.val; rw [if_neg (by decide)])
  -- the one column broadcast over the 32 features reads the column at the row
  have wide : ∀ (v : FVec Ideal S1600000x1 .f32),
      broadcastInDim S1600000x32 ![0, 1] bcast_S1600000x1_S1600000x32_0_1 v (ix2 e j) = v (ix2 e 0) := fun v =>
    broadcastInDim_apply _ bcast_S1600000x1_S1600000x32_0_1 v (ix2 e j) (ix2 e 0) (fun a => match a with
      | ⟨0, _⟩ => by show e.val = if (1600000 : Nat) = 1 then 0 else e.val; rw [if_neg (by decide)]
      | ⟨1, _⟩ => by show 0 = if (1 : Nat) = 1 then 0 else j.val; rw [if_pos rfl])
  rw [Cert.GraphConv.edgeScale_apply, mulf_apply, wide, col, col, col, mulf_apply]

end Cert.ReferenceIdeal.RefTerms

end
-- ==== Proof.Bridge.lean ====
/-
  The reference computes the layer.

  The reference program is one straight line of array operations, and its result is one composed term of the
  arguments. Two sub-terms of it are the specification's functions: the matrix product with the transposed weights
  plus the broadcast bias is the affine map, and the gathered rows times the twice-broadcast product of the two
  gathered weights is the per-edge scale of the rows by the two weight columns. Everything around them — the degree
  weights, the wrapped indices, the gathers, the scatter-add and the maximum — is, operation for operation, what the
  kernel's program applies, so after the two rewrites the two terms coincide.
-/
import proofs.«160242_j83107617177960_2_alg».proof.Proof.Layer
import proofs.«160242_j83107617177960_2_alg».proof.Proof.RefTerms

set_option maxRecDepth 16384

noncomputable section

namespace Cert.ReferenceIdeal.RefTerms

open Cert.ReferenceIdeal Cert.ReferenceIdeal.Gen
open Idealize.ShloMosaic Idealize.ShloMosaic.TcCoe

/-- The reference's composed term, at any arguments, is the layer. -/
theorem reference_eq (x : FVec Ideal S100000x128 .f32) (W : FVec Ideal S32x128 .f32) (b : FVec Ideal S32 .f32)
    (src dst : IVec S1600000 32) :
    maximumf (Host.scatterAdd (F := Ideal) scatter_S100000x32_S1600000x1_S1600000x32_1_0_0_1 (broadcastInDim S100000x32 ![] bcast_S_S100000x32 (constant S_ .f32 0x00000000#32)) (broadcastInDim S1600000x1 ![0] bcast_S1600000_S1600000x1_0 dst) (mulf (Host.gather gather_S100000x32_S1600000x1_S1600000x32_1_0_n_n_0_1_132 (addf (Host.dotGeneral (F := Ideal) dot_S100000x128_S128x32_S100000x32_1_0_0_1_n_n none x (transpose S128x32 [1, 0] W transposes_S32x128_S128x32_1_0)) (broadcastInDim S100000x32 ![0, 1] bcast_S1x32_S100000x32_0_1 (broadcastInDim S1x32 ![1] bcast_S32_S1x32_1 b))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x32 ![0, 1] bcast_S1600000x1_S1600000x32_0_1 (broadcastInDim S1600000x1 ![0] bcast_S1600000_S1600000x1_0 (mulf (Host.gather gather_S100000_S1600000x1_S1600000_n_0_n_n_0_1_1 (Host.rsqrt (F := Ideal) (maximumf (Host.scatterAdd (F := Ideal) scatter_S100000_S1600000x1_S1600000_n_0_0_1 (broadcastInDim S100000 ![] bcast_S_S100000 (constant S_ .f32 0x00000000#32)) (broadcastInDim S1600000x1 ![0] bcast_S1600000_S1600000x1_0 src) (broadcastInDim S1600000 ![] bcast_S_S1600000 (constant S_ .f32 0x3F800000#32))) (broadcastInDim S100000 ![] bcast_S_S100000 (constant S_ .f32 0x3F800000#32)))) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (Host.gather gather_S100000_S1600000x1_S1600000_n_0_n_n_0_1_1 (Host.rsqrt (F := Ideal) (maximumf (Host.scatterAdd (F := Ideal) scatter_S100000_S1600000x1_S1600000_n_0_0_1 (broadcastInDim S100000 ![] bcast_S_S100000 (constant S_ .f32 0x00000000#32)) (broadcastInDim S1600000x1 ![0] bcast_S1600000_S1600000x1_0 src) (broadcastInDim S1600000 ![] bcast_S_S1600000 (constant S_ .f32 0x3F800000#32))) (broadcastInDim S100000 ![] bcast_S_S100000 (constant S_ .f32 0x3F800000#32)))) (broadcastInDim S1600000x1 ![0] bcast_S1600000_S1600000x1_0 (select (cmpi .slt dst (broadcastInDim S1600000 ![] bcast_S_S1600000 (constantI S_ 32 0#32))) (addi dst (broadcastInDim S1600000 ![] bcast_S_S1600000 (constantI S_ 32 100000#32))) dst)))))))) (broadcastInDim S100000x32 ![] bcast_S_S100000x32 (constant S_ .f32 0x00000000#32))
      = Cert.KernelIdeal.HostChain.layer x W b src dst := by
  rw [linear_eq, edgeScale_eq]
  rfl

end Cert.ReferenceIdeal.RefTerms

end
-- ==== Proof.lean ====
/-
  One graph-convolution layer, computed two ways, gives the same array over the extended reals.

  The kernel's program computes the affine map of the node features in ten row blocks and the per-edge scale of the
  gathered source rows in two hundred edge blocks, with plain array operations around them for the degree weights,
  the gathers and the aggregation; the reference computes everything with plain array operations on whole arrays.
  The blocks of each region tile its output array, and what each block holds is the same function of the whole
  input arrays read under that block, so each region's output is one whole-array function (the affine map; the
  per-edge scale). Changes of float format are the identity on the extended reals, a matrix product into a zero
  accumulator is the plain sum of products, and the per-edge scale multiplies in the same grouping on both sides, so
  no law of arithmetic beyond that is used and the inputs' finiteness is never opened. Both runs end with the result
  at one and the same term, `layer`, of the five arguments.

  The three frames: the two kernel programs terminate without a fault and leave their arguments as launched; the
  reference's frame is its run with the result dropped. The idealization rewrote no operation, so there is nothing
  to preserve.
-/
import proofs.«160242_j83107617177960_2_alg».proof.Defs
import proofs.«160242_j83107617177960_2_alg».proof.Proof.Gen.Kernel
import proofs.«160242_j83107617177960_2_alg».proof.Proof.Gen.Kernel.Frame
import proofs.«160242_j83107617177960_2_alg».proof.Proof.Gen.KernelIdeal
import proofs.«160242_j83107617177960_2_alg».proof.Proof.Gen.KernelIdeal.Frame
import proofs.«160242_j83107617177960_2_alg».proof.Proof.Gen.ReferenceIdeal
import proofs.«160242_j83107617177960_2_alg».proof.Proof.Gen.Pre_finite_inputs
import proofs.«160242_j83107617177960_2_alg».proof.Proof.Gen.ReferenceIdeal.Run
import proofs.«160242_j83107617177960_2_alg».proof.Proof.Gen.ReferenceIdeal.Read
import proofs.«160242_j83107617177960_2_alg».proof.Proof.KernelValue
import proofs.«160242_j83107617177960_2_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments, the idealized kernel ends with its result at the layer of its
    launch arrays and the reference with its result at the same composed term of its own, which is the layer of the
    same arrays. -/
theorem algebraic : Cert.algebraic_KernelIdeal_ReferenceIdeal := by
  intro m ρ m' ρ' _ hagree
  refine ⟨fun c => Cert.KernelIdeal.HostChain.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.RunValue.run_layer m ρ, ?_⟩
  refine (θ_run Cert.ReferenceIdeal.defs _ _).mono (fun _ h c => ⟨?_, (h c).2⟩)
    (Cert.ReferenceIdeal.Value.run (F := Ideal) m' ρ')
  rw [(h c).1, (hagree c).1, (hagree c).2.1, (hagree c).2.2.1, (hagree c).2.2.2.1, (hagree c).2.2.2.2]
  exact Cert.ReferenceIdeal.RefTerms.reference_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
